-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S512x2048 : Shape := ⟨2, ![512, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S512x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S512x2048 : Shape := ⟨2, ![512, 2048]⟩
abbrev S2048 : Shape := ⟨1, ![2048]⟩
abbrev S512x512 : Shape := ⟨2, ![512, 512]⟩
abbrev S2048x2048 : Shape := ⟨2, ![2048, 2048]⟩
abbrev S_ : Shape := ⟨0, ![]⟩
abbrev S2048x1 : Shape := ⟨2, ![2048, 1]⟩
abbrev S1x2048 : Shape := ⟨2, ![1, 2048]⟩

abbrev nBuf : Space → Nat
  | .hbm => 37
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2048, .i32⟩
  | .hbm, ⟨4, _⟩ => ⟨S2048, .i1⟩
  | .hbm, ⟨5, _⟩ => ⟨S2048, .i32⟩
  | .hbm, ⟨6, _⟩ => ⟨S2048, .i1⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x2048, .f32⟩
  | .hbm, ⟨15, _⟩ => ⟨S512x512, .f32⟩
  | .hbm, ⟨16, _⟩ => ⟨S512x2048, .f32⟩
  | .hbm, ⟨17, _⟩ => ⟨S512x512, .f32⟩
  | .hbm, ⟨18, _⟩ => ⟨S512x2048, .f32⟩
  | .hbm, ⟨19, _⟩ => ⟨S512x512, .f32⟩
  | .hbm, ⟨20, _⟩ => ⟨S512x2048, .f32⟩
  | .hbm, ⟨21, _⟩ => ⟨S2048x2048, .f32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048x2048, .f32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S2048x2048, .f32⟩
  | .hbm, ⟨34, _⟩ => ⟨S2048x2048, .bf16⟩
  | .hbm, ⟨35, _⟩ => ⟨S1x2048, .f32⟩
  | .hbm, ⟨36, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S512x2048_S512x512_0_0 : S512x2048.Slices ![0, 0] S512x512
  slices_S512x2048_S512x512_0_512 : S512x2048.Slices ![0, 512] S512x512
  slices_S512x2048_S512x512_0_1024 : S512x2048.Slices ![0, 1024] S512x512
  slices_S512x2048_S512x512_0_1536 : S512x2048.Slices ![0, 1536] S512x512
  concatenates_S512x512_S512x512_S512x512_S512x512_S512x2048_d1 : Shape.Concatenates [S512x512, S512x512, S512x512, S512x512] S512x2048 1
  concatenates_S512x2048_S512x2048_S512x2048_S512x2048_S2048x2048_d0 : Shape.Concatenates [S512x2048, S512x2048, S512x2048, S512x2048] S2048x2048 0
  bcast_S_S2048 : S_.BroadcastsInDim S2048 (![] : Fin 0 → Fin S2048.rank)
  bcast_S2048_S2048x1_0 : S2048.BroadcastsInDim S2048x1 (![0] : Fin 1 → Fin S2048x1.rank)
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  gather_S2048x2048_S2048x1_S2048x2048_1_0_n_n_0_1_12048_wf : GatherDims.WF S2048x2048 S2048x1 S2048x2048 [1] [0] [] [0] [] 1 ![1, 2048]
  gather_S2048x2048_S2048x1_S2048x2048_0_1_n_n_1_1_20481_wf : GatherDims.WF S2048x2048 S2048x1 S2048x2048 [0] [1] [] [1] [] 1 ![2048, 1]
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def gather_S2048x2048_S2048x1_S2048x2048_1_0_n_n_0_1_12048 : GatherDims S2048x2048 S2048x1 S2048x2048 where
  offsetDims := [1]
  collapsedSliceDims := [0]
  operandBatchingDims := []
  startIndicesBatchingDims := []
  startIndexMap := [0]
  indexVectorDim := 1
  sliceSizes := ![1, 2048]
  wf := gather_S2048x2048_S2048x1_S2048x2048_1_0_n_n_0_1_12048_wf
def gather_S2048x2048_S2048x1_S2048x2048_0_1_n_n_1_1_20481 : GatherDims S2048x2048 S2048x1 S2048x2048 where
  offsetDims := [0]
  collapsedSliceDims := [1]
  operandBatchingDims := []
  startIndicesBatchingDims := []
  startIndexMap := [1]
  indexVectorDim := 1
  sliceSizes := ![2048, 1]
  wf := gather_S2048x2048_S2048x1_S2048x2048_0_1_n_n_1_1_20481_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S512x2048 : Shape := ⟨2, ![512, 2048]⟩
abbrev S2048 : Shape := ⟨1, ![2048]⟩
abbrev S512x512 : Shape := ⟨2, ![512, 512]⟩
abbrev S2048x2048 : Shape := ⟨2, ![2048, 2048]⟩
abbrev S_ : Shape := ⟨0, ![]⟩
abbrev S2048x1 : Shape := ⟨2, ![2048, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2048, .i32⟩
  | .hbm, ⟨4, _⟩ => ⟨S2048, .i1⟩
  | .hbm, ⟨5, _⟩ => ⟨S2048, .i32⟩
  | .hbm, ⟨6, _⟩ => ⟨S2048, .i1⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x2048, .f32⟩
  | .hbm, ⟨15, _⟩ => ⟨S512x512, .f32⟩
  | .hbm, ⟨16, _⟩ => ⟨S512x2048, .f32⟩
  | .hbm, ⟨17, _⟩ => ⟨S512x512, .f32⟩
  | .hbm, ⟨18, _⟩ => ⟨S512x2048, .f32⟩
  | .hbm, ⟨19, _⟩ => ⟨S512x512, .f32⟩
  | .hbm, ⟨20, _⟩ => ⟨S512x2048, .f32⟩
  | .hbm, ⟨21, _⟩ => ⟨S2048x2048, .f32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048x2048, .f32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S2048x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  slices_S512x2048_S512x512_0_0 : S512x2048.Slices ![0, 0] S512x512
  slices_S512x2048_S512x512_0_512 : S512x2048.Slices ![0, 512] S512x512
  slices_S512x2048_S512x512_0_1024 : S512x2048.Slices ![0, 1024] S512x512
  slices_S512x2048_S512x512_0_1536 : S512x2048.Slices ![0, 1536] S512x512
  concatenates_S512x512_S512x512_S512x512_S512x512_S512x2048_d1 : Shape.Concatenates [S512x512, S512x512, S512x512, S512x512] S512x2048 1
  concatenates_S512x2048_S512x2048_S512x2048_S512x2048_S2048x2048_d0 : Shape.Concatenates [S512x2048, S512x2048, S512x2048, S512x2048] S2048x2048 0
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  gather_S2048x2048_S2048x1_S2048x2048_1_0_n_n_0_1_12048_wf : GatherDims.WF S2048x2048 S2048x1 S2048x2048 [1] [0] [] [0] [] 1 ![1, 2048]
  gather_S2048x2048_S2048x1_S2048x2048_0_1_n_n_1_1_20481_wf : GatherDims.WF S2048x2048 S2048x1 S2048x2048 [0] [1] [] [1] [] 1 ![2048, 1]
  dot_S8192x2048_S2048x2048_S8192x2048_1_0_0_1_n_n_wf : DotDims.WF S8192x2048 S2048x2048 S8192x2048 [1] [0] [0] [1] [] []

variable [Facts₀]

def gather_S2048x2048_S2048x1_S2048x2048_1_0_n_n_0_1_12048 : GatherDims S2048x2048 S2048x1 S2048x2048 where
  offsetDims := [1]
  collapsedSliceDims := [0]
  operandBatchingDims := []
  startIndicesBatchingDims := []
  startIndexMap := [0]
  indexVectorDim := 1
  sliceSizes := ![1, 2048]
  wf := gather_S2048x2048_S2048x1_S2048x2048_1_0_n_n_0_1_12048_wf
def gather_S2048x2048_S2048x1_S2048x2048_0_1_n_n_1_1_20481 : GatherDims S2048x2048 S2048x1 S2048x2048 where
  offsetDims := [0]
  collapsedSliceDims := [1]
  operandBatchingDims := []
  startIndicesBatchingDims := []
  startIndexMap := [1]
  indexVectorDim := 1
  sliceSizes := ![2048, 1]
  wf := gather_S2048x2048_S2048x1_S2048x2048_0_1_n_n_1_1_20481_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.FrameK.lean ====
/-
  The frame of the program `Kernel`: @main is a line of host operations — the quaternion (Hamilton) matrix built from the
  weight by slices, negations and concatenations, its rows and columns permuted by two gathers, the bias reshaped to one
  row — followed by ONE pipelined region over 16 grid points. At point `t` the body loads rows `512·t … 512·t + 511` of the
  input, the whole permuted matrix and the bias row, and stores `input_block · matrix + bias` over the whole output block.
  This module states what the region finds in each array (`V`), what each window's block is at a point (`iblk`), what the
  body leaves in the output block (`out3`: the one covering store), the body's triple, and the run of @main: every weakly
  fair execution terminates, the arguments are unchanged, and the output array is what the blocks written back make of it.
-/
import proofs.«131239_j88905823027438_2_alg».proof.Proof.Gen.Kernel.Launch
import proofs.«131239_j88905823027438_2_alg».proof.Proof.Gen.Kernel.Skeleton
import proofs.«131239_j88905823027438_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents rewritten by the host operations, in order. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: each result buffer is another reference. -/
theorem V_arg (c : Dev nD) (r : Ref sig .tc) (hr : r = main_arg0 ∨ r = main_arg1 ∨ r = main_arg2) :
    V m c r = m ((c : Thread nD τ).loc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    rcases hr with rfl | rfl | rfl
    all_goals
      repeat' apply And.intro
      all_goals exact StableHlo.devRef_ne_of_ne (by decide)))

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr (.inl rfl))
theorem V_main_arg2 (c : Dev nD) : V m c main_arg2 = m ((c : Thread nD τ).loc main_arg2) := V_arg m c _ (.inr (.inr rfl))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not fetched its
    block index has not moved since the fetch. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame's post from the run's -/

/-- The argument arrays end unchanged: the input is a staged input array, the weight and the bias are staged by no
    window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's accesses -/

abbrev rIn : Rect S512x2048 := Rect.unit (s := S512x2048) ![0, 0] S512x2048.size inb_S512x2048_S512x2048_0_0
abbrev rMat : Rect S2048x2048 := Rect.unit (s := S2048x2048) ![0, 0] S2048x2048.size inb_S2048x2048_S2048x2048_0_0
abbrev rBias : Rect S1x2048 := Rect.unit (s := S1x2048) ![0, 0] S1x2048.size inb_S1x2048_S1x2048_0_0

/-- The output block after the body: its one store, of the product plus the bias, over the whole block. -/
def out3 (x0 : Vec F S512x2048 .f32) (x1 : Vec F S2048x2048 .bf16) (x2 : Vec F S1x2048 .f32) : Vec F S512x2048 .f32 :=
  View.canon [⟨rIn, k0_pay1 (View.ld x0 rIn) (View.ld x1 rMat) (View.ld x2 rBias)⟩]

/-- The one store covers the block. -/
theorem cover3 (p0 : Vec F S512x2048 .f32) (y : S512x2048.Idx) :
    ∃ pc ∈ ([⟨rIn, p0⟩] : List (View.Piece (Elt F) S512x2048 .f32)), y ∈ pc.1.set :=
  View.cover_of_tiled [⟨rIn, p0⟩] S512x2048.size (by rfl) y

/-! ## The body's triple -/

set_option maxHeartbeats 1000000 in
/-- The body on whole staging buffers, the inputs' at contents `x0 x1 x2`, the output's at anything, leaves the inputs'
    as they were and the output's at `out3`. -/
theorem sound_kernel (c : Dev nD) (E : Set ℕ) (i : grid0.Coords) (arg1 : Memref sig .tc .vmem S512x2048 .f32) (harg1 : arg1.IsWhole)
    (arg2 : Memref sig .tc .vmem S2048x2048 .bf16) (harg2 : arg2.IsWhole) (arg3 : Memref sig .tc .vmem S1x2048 .f32) (harg3 : arg3.IsWhole)
    (arg4 : Memref sig .tc .vmem S512x2048 .f32) (harg4 : arg4.IsWhole)
    (x0 : Vec F S512x2048 .f32) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- After the body at point `t` each input's buffer holds its block and the output's holds `out3` of the input blocks; the
    invariant is the scoped rest and the generator register, untouched; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the blocks written back make
    of it, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Frame

end
-- ==== Proof.FrameKI.lean ====
/-
  The frame of the program `KernelIdeal`: @main is a line of host operations — the quaternion (Hamilton) matrix built from the
  weight by slices, negations and concatenations, its rows and columns permuted by two gathers, the bias reshaped to one
  row — followed by ONE pipelined region over 16 grid points. At point `t` the body loads rows `512·t … 512·t + 511` of the
  input, the whole permuted matrix and the bias row, and stores `input_block · matrix + bias` over the whole output block.
  This module states what the region finds in each array (`V`), what each window's block is at a point (`iblk`), what the
  body leaves in the output block (`out3`: the one covering store), the body's triple, and the run of @main: every weakly
  fair execution terminates, the arguments are unchanged, and the output array is what the blocks written back make of it.
-/
import proofs.«131239_j88905823027438_2_alg».proof.Proof.Gen.KernelIdeal.Launch
import proofs.«131239_j88905823027438_2_alg».proof.Proof.Gen.KernelIdeal.Skeleton
import proofs.«131239_j88905823027438_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents rewritten by the host operations, in order. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: each result buffer is another reference. -/
theorem V_arg (c : Dev nD) (r : Ref sig .tc) (hr : r = main_arg0 ∨ r = main_arg1 ∨ r = main_arg2) :
    V m c r = m ((c : Thread nD τ).loc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.nary_writes, StableHlo.reshape_writes, Finset.mem_singleton]
    rcases hr with rfl | rfl | rfl
    all_goals
      repeat' apply And.intro
      all_goals exact StableHlo.devRef_ne_of_ne (by decide)))

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr (.inl rfl))
theorem V_main_arg2 (c : Dev nD) : V m c main_arg2 = m ((c : Thread nD τ).loc main_arg2) := V_arg m c _ (.inr (.inr rfl))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not fetched its
    block index has not moved since the fetch. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame's post from the run's -/

/-- The argument arrays end unchanged: the input is a staged input array, the weight and the bias are staged by no
    window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's accesses -/

abbrev rIn : Rect S512x2048 := Rect.unit (s := S512x2048) ![0, 0] S512x2048.size inb_S512x2048_S512x2048_0_0
abbrev rMat : Rect S2048x2048 := Rect.unit (s := S2048x2048) ![0, 0] S2048x2048.size inb_S2048x2048_S2048x2048_0_0
abbrev rBias : Rect S1x2048 := Rect.unit (s := S1x2048) ![0, 0] S1x2048.size inb_S1x2048_S1x2048_0_0

/-- The output block after the body: its one store, of the product plus the bias, over the whole block. -/
def out3 (x0 : Vec F S512x2048 .f32) (x1 : Vec F S2048x2048 .bf16) (x2 : Vec F S1x2048 .f32) : Vec F S512x2048 .f32 :=
  View.canon [⟨rIn, k0_pay1 (View.ld x0 rIn) (View.ld x1 rMat) (View.ld x2 rBias)⟩]

/-- The one store covers the block. -/
theorem cover3 (p0 : Vec F S512x2048 .f32) (y : S512x2048.Idx) :
    ∃ pc ∈ ([⟨rIn, p0⟩] : List (View.Piece (Elt F) S512x2048 .f32)), y ∈ pc.1.set :=
  View.cover_of_tiled [⟨rIn, p0⟩] S512x2048.size (by rfl) y

/-! ## The body's triple -/

set_option maxHeartbeats 1000000 in
/-- The body on whole staging buffers, the inputs' at contents `x0 x1 x2`, the output's at anything, leaves the inputs'
    as they were and the output's at `out3`. -/
theorem sound_kernel (c : Dev nD) (E : Set ℕ) (i : grid0.Coords) (arg1 : Memref sig .tc .vmem S512x2048 .f32) (harg1 : arg1.IsWhole)
    (arg2 : Memref sig .tc .vmem S2048x2048 .bf16) (harg2 : arg2.IsWhole) (arg3 : Memref sig .tc .vmem S1x2048 .f32) (harg3 : arg3.IsWhole)
    (arg4 : Memref sig .tc .vmem S512x2048 .f32) (harg4 : arg4.IsWhole)
    (x0 : Vec F S512x2048 .f32) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- After the body at point `t` each input's buffer holds its block and the output's holds `out3` of the input blocks; the
    invariant is the scoped rest and the generator register, untouched; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the blocks written back make
    of it, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Frame

end
-- ==== Proof.HamKI.lean ====
/-
  The quaternion (Hamilton) matrix of a weight, and its row and column permutation, as ONE function of the weight array.
  The weight `w : [512, 2048]` is cut into four column blocks `r, i, j, k : [512, 512]`; the Hamilton matrix is the
  `[2048, 2048]` block matrix
      [ r  -i  -j  -k ]
      [ i   r  -k   j ]
      [ j   k   r  -i ]
      [ k  -j   i   r ],
  and `hamPerm w` gathers its rows by one table of 2048 row numbers and then its columns by another (a negative
  entry would be shifted by 2048 first; the select's condition is the constant `false`). Nothing here or later depends on
  what the two tables hold: both programs compute this same term of the weight, and the proof only ever reads the matrix
  as an opaque `[2048, 2048]` array.
-/
import proofs.«131239_j88905823027438_2_alg».proof.Proof.Gen.KernelIdeal

noncomputable section

namespace Cert.KernelIdeal.Ham

open Cert.KernelIdeal Cert.KernelIdeal.Facts₀ Idealize.ShloMosaic

variable {F : FTy → Type} [FloatOps F]

/-- The four column blocks of the weight: the quaternion's real part and its three imaginary parts. -/
def partR (w : (⟨S512x2048, .f32⟩ : BufTy).Contents (Elt F)) : (⟨S512x512, .f32⟩ : BufTy).Contents (Elt F) :=
  extractStridedSlice S512x512 ![0, 0] w slices_S512x2048_S512x512_0_0
def partI (w : (⟨S512x2048, .f32⟩ : BufTy).Contents (Elt F)) : (⟨S512x512, .f32⟩ : BufTy).Contents (Elt F) :=
  extractStridedSlice S512x512 ![0, 512] w slices_S512x2048_S512x512_0_512
def partJ (w : (⟨S512x2048, .f32⟩ : BufTy).Contents (Elt F)) : (⟨S512x512, .f32⟩ : BufTy).Contents (Elt F) :=
  extractStridedSlice S512x512 ![0, 1024] w slices_S512x2048_S512x512_0_1024
def partK (w : (⟨S512x2048, .f32⟩ : BufTy).Contents (Elt F)) : (⟨S512x512, .f32⟩ : BufTy).Contents (Elt F) :=
  extractStridedSlice S512x512 ![0, 1536] w slices_S512x2048_S512x512_0_1536

/-- Four `[512, 512]` blocks side by side: one block row of the matrix. -/
def blockRow (a b c d : (⟨S512x512, .f32⟩ : BufTy).Contents (Elt F)) : (⟨S512x2048, .f32⟩ : BufTy).Contents (Elt F) :=
  concatenate S512x2048 1 [⟨S512x512, a⟩, ⟨S512x512, b⟩, ⟨S512x512, c⟩, ⟨S512x512, d⟩] concatenates_S512x512_S512x512_S512x512_S512x512_S512x2048_d1

/-- The Hamilton matrix: the four block rows stacked. -/
def ham (w : (⟨S512x2048, .f32⟩ : BufTy).Contents (Elt F)) : (⟨S2048x2048, .f32⟩ : BufTy).Contents (Elt F) :=
  concatenate S2048x2048 0
    [⟨S512x2048, blockRow (partR w) (Host.negf (partI w)) (Host.negf (partJ w)) (Host.negf (partK w))⟩,
     ⟨S512x2048, blockRow (partI w) (partR w) (Host.negf (partK w)) (partJ w)⟩,
     ⟨S512x2048, blockRow (partJ w) (partK w) (partR w) (Host.negf (partI w))⟩,
     ⟨S512x2048, blockRow (partK w) (Host.negf (partJ w)) (partI w) (partR w)⟩]
    concatenates_S512x2048_S512x2048_S512x2048_S512x2048_S2048x2048_d0

/-- A table of 2048 numbers as a column of start indices for a gather: an entry that is negative is shifted by 2048
    (here the condition is the constant `false`, so no entry is), then the row is stood up as a `[2048, 1]` column. -/
def startColumn (tbl : Fin 2048 → BitVec 32) : (⟨S2048x1, .i32⟩ : BufTy).Contents (Elt F) :=
  broadcastInDim S2048x1 ![0] bcast_S2048_S2048x1_0
    (select (constantI S2048 1 0#1 : (⟨S2048, .i1⟩ : BufTy).Contents (Elt F))
      (addi (fun i => tbl (S2048.rowMajor i) : (⟨S2048, .i32⟩ : BufTy).Contents (Elt F))
        (broadcastInDim S2048 ![] bcast_S_S2048 (constantI S_ 32 2048#32 : (⟨S_, .i32⟩ : BufTy).Contents (Elt F))))
      (fun i => tbl (S2048.rowMajor i) : (⟨S2048, .i32⟩ : BufTy).Contents (Elt F)))

/-- The Hamilton matrix with its rows gathered by the first table and then its columns by the second. -/
def hamPerm (w : (⟨S512x2048, .f32⟩ : BufTy).Contents (Elt F)) : (⟨S2048x2048, .f32⟩ : BufTy).Contents (Elt F) :=
  Host.gather gather_S2048x2048_S2048x1_S2048x2048_0_1_n_n_1_1_20481
    (Host.gather gather_S2048x2048_S2048x1_S2048x2048_1_0_n_n_0_1_12048 (ham w) (startColumn (F := F) lit0))
    (startColumn (F := F) lit1)

end Cert.KernelIdeal.Ham

end
-- ==== Proof.Spec.lean ====
/-
  The function both programs compute, over the extended reals: for an input `x : [8192, 2048]`, a matrix
  `H : [2048, 2048]` and a bias `b : [2048]`,
      out[r, j] = (∑ k < 2048, x[r, k] · H[k, j]) + b[j].
  No law of the extended reals is needed to join the two programs: the kernel computes this row block by row block (512
  rows at a grid point, the whole contraction at once), the reference computes it in one product, and at each index both
  are literally this sum plus this bias entry.
-/
import Idealize.ShloMosaic.PureOps.Ideal
import Idealize.ShloMosaic.Lib.ValueIdx

noncomputable section

open scoped BigOperators

namespace Cert.Spec

open Idealize.ShloMosaic Idealize.ShloMosaic.ValueIdx

/-- `x · H + b`, the bias added to every row. -/
def affine (x : FVec Ideal ⟨2, ![8192, 2048]⟩ .f32) (H : FVec Ideal ⟨2, ![2048, 2048]⟩ .f32) (b : FVec Ideal ⟨1, ![2048]⟩ .f32) :
    FVec Ideal ⟨2, ![8192, 2048]⟩ .f32 :=
  fun i => (∑ k : Fin 2048, x (ix2 (i 0) k) * H (ix2 k (i 1))) + b (ix1 (i 1))

/-- The same at coordinates. -/
theorem affine_apply (x : FVec Ideal ⟨2, ![8192, 2048]⟩ .f32) (H : FVec Ideal ⟨2, ![2048, 2048]⟩ .f32) (b : FVec Ideal ⟨1, ![2048]⟩ .f32)
    (r : Fin 8192) (j : Fin 2048) :
    affine x H b (ix2 r j) = (∑ k : Fin 2048, x (ix2 r k) * H (ix2 k j)) + b (ix1 j) := rfl

end Cert.Spec

end
-- ==== Proof.ValueKI.lean ====
/-
  What the kernel's result array holds after the run, at the ideal instance. The region finds the input as launched, the
  permuted Hamilton matrix of the weight (narrowed to bf16: the identity on extended reals) and the bias as one row. At
  grid point `t` the body's store is, at row `p` and column `q` of the block, the sum over `k` of
  `input[512·t + p, k] · matrix[k, q]` plus `bias[q]`: block `t` of `Spec.affine`. The sixteen blocks tile the array, so the
  array ends holding `Spec.affine` of the arguments.
-/
import proofs.«131239_j88905823027438_2_alg».proof.Proof.FrameKI
import proofs.«131239_j88905823027438_2_alg».proof.Proof.HamKI
import proofs.«131239_j88905823027438_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.Value

open Cert.KernelIdeal Cert.KernelIdeal.Gen Cert.KernelIdeal.Frame Cert.KernelIdeal.Ham
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the region finds -/

/-- The matrix operand: the permuted Hamilton matrix of the weight, narrowed to bf16. -/
theorem V_mat (c : Dev nD) : (V m c main_v25 : Vec Ideal S2048x2048 .bf16)
    = truncf .bf16 (hamPerm (m ((c : Thread nD τ).loc main_arg1))) bitsLt_bf16_f32 := by
  dsimp only [V, hostOps0]
  after_results_simp
  rfl

/-- The bias operand: the bias as one row. -/
theorem V_bias (c : Dev nD) : (V m c main_v26 : Vec Ideal S1x2048 .f32)
    = shapeCast S1x2048 (m ((c : Thread nD τ).loc main_arg2)) shapeCasts_S2048_S1x2048 := by
  dsimp only [V, hostOps0]
  after_results_simp
  rfl

/-! ## The body's store at an index -/

/-- At row `p` and column `q` of a block the stored value is the row of the input block times the column of the matrix,
    plus the bias row's entry at `q`. -/
theorem pay_apply (x0 : Vec Ideal S512x2048 .f32) (x1 : Vec Ideal S2048x2048 .bf16) (x2 : Vec Ideal S1x2048 .f32)
    (p : Fin 512) (q : Fin 2048) :
    k0_pay1 x0 x1 x2 (ix2 p q) = (∑ k : Fin 2048, x0 (ix2 p k) * x1 (ix2 k q)) + x2 (ix2 0 q) := by
  show (matmul dot_S512x2048_S2048x2048_S512x2048_1_0_0_1_n_n none (truncf .bf16 x0 bitsLt_bf16_f32)
        (shapeCast S2048x2048 x1 shapeCasts_S2048x2048_S2048x2048) (constant (F := Ideal) S512x2048 .f32 0x00000000#32)) (ix2 p q)
      + (broadcastTo S512x2048 (shapeCast S1x2048 x2 shapeCasts_S1x2048_S1x2048) broadcasts_S1x2048_S512x2048) (ix2 p q) = _
  refine congrArg₂ (· + ·) ?_ ?_
  · refine (Ideal.matmul_constant_zero_apply _ none _ _ _).trans ?_
    rw [← Equiv.sum_comp (contrEquiv1 dot_S512x2048_S2048x2048_S512x2048_1_0_0_1_n_n 2048 rfl rfl).symm]
    refine Finset.sum_congr rfl fun k _ => ?_
    refine congrArg₂ (· * ·) ?_ ?_
    · show x0 _ = x0 _
      refine congrArg x0 (funext fun a => Fin.ext ?_)
      match a with
      | ⟨0, _⟩ => rfl
      | ⟨1, _⟩ => exact (DotDims.lhsIdx_val_of_single _ rfl _ _).trans (contrEquiv1_symm_val _ _ _ _ k)
    · refine (congrFun (shapeCast_self x1 _) _).trans ?_
      refine congrArg x1 (funext fun a => Fin.ext ?_)
      match a with
      | ⟨0, _⟩ => exact (DotDims.rhsIdx_val_of_single _ rfl _ _).trans (contrEquiv1_symm_val _ _ _ _ k)
      | ⟨1, _⟩ => rfl
  · refine (broadcastTo_apply _ _ _ (ix2 0 q) ?_).trans ?_
    · intro a
      match a with
      | ⟨0, _⟩ => rfl
      | ⟨1, _⟩ => rfl
    · exact congrFun (shapeCast_self x2 _) _

/-! ## From blocks to the array -/

theorem hz : (![0, 0] : Fin 2 → Nat) = fun _ => 0 := funext fun a => by fin_cases a <;> rfl

/-- The printed index maps over the grid: the input's and the output's row block is the point's number, every other
    block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array both programs end with: `Spec.affine` of the launch contents. -/
def result (c : Dev nD) : FVec Ideal S8192x2048 .f32 :=
  Cert.Spec.affine (m ((c : Thread nD τ).loc main_arg0)) (hamPerm (m ((c : Thread nD τ).loc main_arg1)))
    (m ((c : Thread nD τ).loc main_arg2))

/-- The input block at point `t`, read at row `p`: the input's row `512·t + p`. -/
theorem iblk0_apply (c : Dev nD) (t : Fin cfg0.N) (p : Fin 512) (k : Fin 2048) (r : Fin 8192) (hr : r.val = 512 * t.val + p.val) :
    iblk m c 0 t (ix2 p k) = (m ((c : Thread nD τ).loc main_arg0) : FVec Ideal S8192x2048 .f32) (ix2 r k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = r.val; omega
  | ⟨1, _⟩ => show win0_0.index t (1 : Fin 2) * 2048 + 1 * k.val = k.val; omega

/-- The matrix block is the whole permuted Hamilton matrix at every point. -/
theorem iblk1_apply (c : Dev nD) (t : Fin cfg0.N) (k : Fin 2048) (q : Fin 2048) :
    iblk m c 1 t (ix2 k q) = (hamPerm (m ((c : Thread nD τ).loc main_arg1)) : FVec Ideal S2048x2048 .f32) (ix2 k q) := by
  obtain ⟨-, -, e2, e3, -⟩ := idx_facts t
  show V m c main_v25 (((cfg0.win 1).blk t).view.emb (ix2 k q)) = _
  rw [V_mat]
  show (hamPerm (m ((c : Thread nD τ).loc main_arg1)) : FVec Ideal S2048x2048 .f32) _ = _
  refine congrArg _ (funext fun a => Fin.ext ?_)
  match a with
  | ⟨0, _⟩ => show win0_1.index t (0 : Fin 2) * 2048 + 1 * k.val = k.val; omega
  | ⟨1, _⟩ => show win0_1.index t (1 : Fin 2) * 2048 + 1 * q.val = q.val; omega

/-- The bias block is the bias as one row at every point. -/
theorem iblk2_apply (c : Dev nD) (t : Fin cfg0.N) (q : Fin 2048) :
    iblk m c 2 t (ix2 0 q) = (m ((c : Thread nD τ).loc main_arg2) : FVec Ideal S2048 .f32) (ix1 q) := by
  obtain ⟨-, -, -, -, e4, e5, -⟩ := idx_facts t
  show V m c main_v26 (((cfg0.win 2).blk t).view.emb (ix2 0 q)) = _
  rw [V_bias]
  refine (shapeCast_addUnit_apply ![2048] _ _ _).trans ?_
  refine congrArg _ (funext fun a => Fin.ext ?_)
  match a with
  | ⟨0, _⟩ => show win0_2.index t (1 : Fin 2) * 2048 + 1 * q.val = q.val; omega

/-- What point `t` writes back is block `t` of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after3]
  unfold out3
  rw [View.canon_unit_zero hz]
  simp only [View.ld_unit_zero (S := S512x2048) hz, View.ld_unit_zero (S := S2048x2048) hz, View.ld_unit_zero (S := S1x2048) hz]
  have hN : cfg0.N = 16 := N_0
  obtain ⟨-, -, -, -, -, -, e6, e7⟩ := idx_facts t
  refine funext fun (j : S512x2048.Idx) => ?_
  obtain ⟨p, q, rfl⟩ : ∃ (p : Fin 512) (q : Fin 2048), j = ix2 p q := ⟨j 0, j 1, eq_ix2 j⟩
  have ht : t.val < 16 := hN ▸ t.isLt
  let r : Fin 8192 := ⟨512 * t.val + p.val, by have := p.isLt; omega⟩
  have hemb : ((cfg0.win 3).blk t).view.emb (ix2 p q) = (ix2 r q : S8192x2048.Idx) := by
    refine funext fun a => Fin.ext ?_
    match a with
    | ⟨0, _⟩ => show win0_3.index t (0 : Fin 2) * 512 + 1 * p.val = 512 * t.val + p.val; omega
    | ⟨1, _⟩ => show win0_3.index t (1 : Fin 2) * 2048 + 1 * q.val = q.val; omega
  show k0_pay1 (iblk m c 0 t) (iblk m c 1 t) (iblk m c 2 t) (ix2 p q) = result m c (((cfg0.win 3).blk t).view.emb (ix2 p q))
  refine (pay_apply _ _ _ p q).trans ?_
  refine Eq.trans ?_ (congrArg (result m c) hemb.symm)
  refine Eq.trans ?_ (Cert.Spec.affine_apply _ _ _ r q).symm
  exact congrArg₂ (· + ·)
    (Finset.sum_congr rfl fun k _ => congrArg₂ (· * ·) (iblk0_apply m c t p k r rfl) (iblk1_apply m c t k q))
    (iblk2_apply m c t q)

/-- An index of the array is in point `t`'s block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v27).slice (win0_3.rect t)).set ↔ _
  rw [View.set_slice_whole, Rect.mem_set_unit]
  exact Iff.rfl

/-- Row `r` of the array lies in the block of point `r / 512`: the sixteen blocks cover the array. -/
theorem cover (i : S8192x2048.Idx) : ∃ t : Fin cfg0.N, (cfg0.win 3).flush t = true ∧ i ∈ ((cfg0.win 3).blk t).view.set := by
  have hN : cfg0.N = 16 := N_0
  have hi0 : (i 0).val < 8192 := (i 0).isLt
  have hi1 : (i 1).val < 2048 := (i 1).isLt
  obtain ⟨t, ht⟩ : ∃ t : Fin cfg0.N, t.val = (i 0).val / 512 := ⟨⟨(i 0).val / 512, by omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- The result array after the run. -/
theorem final (c : Dev nD) : (dats m 0 c).arrAt 3 cfg0.N = result m c :=
  (dats m 0 c).arrAt_eq_of_cover 3 (result m c) (fun t _ => flushed_eq m c t) cover

/-! ## The run, read -/

/-- Every weakly fair execution of the kernel program terminates with the result array at `result` and the arguments
    unchanged. -/
theorem run : θ_run defs (onTc (τ := τ) (main (F := Ideal))) ⟨m, fun _ => 0, ρ⟩ fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Value

end
-- ==== Proof.HamR.lean ====
/-
  The quaternion (Hamilton) matrix of a weight, and its row and column permutation, as ONE function of the weight array.
  The weight `w : [512, 2048]` is cut into four column blocks `r, i, j, k : [512, 512]`; the Hamilton matrix is the
  `[2048, 2048]` block matrix
      [ r  -i  -j  -k ]
      [ i   r  -k   j ]
      [ j   k   r  -i ]
      [ k  -j   i   r ],
  and `hamPerm w` gathers its rows by one table of 2048 row numbers and then its columns by another (a negative
  entry would be shifted by 2048 first; the select's condition is the constant `false`). Nothing here or later depends on
  what the two tables hold: both programs compute this same term of the weight, and the proof only ever reads the matrix
  as an opaque `[2048, 2048]` array.
-/
import proofs.«131239_j88905823027438_2_alg».proof.Proof.Gen.ReferenceIdeal

noncomputable section

namespace Cert.ReferenceIdeal.Ham

open Cert.ReferenceIdeal Cert.ReferenceIdeal.Facts₀ Idealize.ShloMosaic

variable {F : FTy → Type} [FloatOps F]

/-- The four column blocks of the weight: the quaternion's real part and its three imaginary parts. -/
def partR (w : (⟨S512x2048, .f32⟩ : BufTy).Contents (Elt F)) : (⟨S512x512, .f32⟩ : BufTy).Contents (Elt F) :=
  extractStridedSlice S512x512 ![0, 0] w slices_S512x2048_S512x512_0_0
def partI (w : (⟨S512x2048, .f32⟩ : BufTy).Contents (Elt F)) : (⟨S512x512, .f32⟩ : BufTy).Contents (Elt F) :=
  extractStridedSlice S512x512 ![0, 512] w slices_S512x2048_S512x512_0_512
def partJ (w : (⟨S512x2048, .f32⟩ : BufTy).Contents (Elt F)) : (⟨S512x512, .f32⟩ : BufTy).Contents (Elt F) :=
  extractStridedSlice S512x512 ![0, 1024] w slices_S512x2048_S512x512_0_1024
def partK (w : (⟨S512x2048, .f32⟩ : BufTy).Contents (Elt F)) : (⟨S512x512, .f32⟩ : BufTy).Contents (Elt F) :=
  extractStridedSlice S512x512 ![0, 1536] w slices_S512x2048_S512x512_0_1536

/-- Four `[512, 512]` blocks side by side: one block row of the matrix. -/
def blockRow (a b c d : (⟨S512x512, .f32⟩ : BufTy).Contents (Elt F)) : (⟨S512x2048, .f32⟩ : BufTy).Contents (Elt F) :=
  concatenate S512x2048 1 [⟨S512x512, a⟩, ⟨S512x512, b⟩, ⟨S512x512, c⟩, ⟨S512x512, d⟩] concatenates_S512x512_S512x512_S512x512_S512x512_S512x2048_d1

/-- The Hamilton matrix: the four block rows stacked. -/
def ham (w : (⟨S512x2048, .f32⟩ : BufTy).Contents (Elt F)) : (⟨S2048x2048, .f32⟩ : BufTy).Contents (Elt F) :=
  concatenate S2048x2048 0
    [⟨S512x2048, blockRow (partR w) (Host.negf (partI w)) (Host.negf (partJ w)) (Host.negf (partK w))⟩,
     ⟨S512x2048, blockRow (partI w) (partR w) (Host.negf (partK w)) (partJ w)⟩,
     ⟨S512x2048, blockRow (partJ w) (partK w) (partR w) (Host.negf (partI w))⟩,
     ⟨S512x2048, blockRow (partK w) (Host.negf (partJ w)) (partI w) (partR w)⟩]
    concatenates_S512x2048_S512x2048_S512x2048_S512x2048_S2048x2048_d0

/-- A table of 2048 numbers as a column of start indices for a gather: an entry that is negative is shifted by 2048
    (here the condition is the constant `false`, so no entry is), then the row is stood up as a `[2048, 1]` column. -/
def startColumn (tbl : Fin 2048 → BitVec 32) : (⟨S2048x1, .i32⟩ : BufTy).Contents (Elt F) :=
  broadcastInDim S2048x1 ![0] bcast_S2048_S2048x1_0
    (select (constantI S2048 1 0#1 : (⟨S2048, .i1⟩ : BufTy).Contents (Elt F))
      (addi (fun i => tbl (S2048.rowMajor i) : (⟨S2048, .i32⟩ : BufTy).Contents (Elt F))
        (broadcastInDim S2048 ![] bcast_S_S2048 (constantI S_ 32 2048#32 : (⟨S_, .i32⟩ : BufTy).Contents (Elt F))))
      (fun i => tbl (S2048.rowMajor i) : (⟨S2048, .i32⟩ : BufTy).Contents (Elt F)))

/-- The Hamilton matrix with its rows gathered by the first table and then its columns by the second. -/
def hamPerm (w : (⟨S512x2048, .f32⟩ : BufTy).Contents (Elt F)) : (⟨S2048x2048, .f32⟩ : BufTy).Contents (Elt F) :=
  Host.gather gather_S2048x2048_S2048x1_S2048x2048_0_1_n_n_1_1_20481
    (Host.gather gather_S2048x2048_S2048x1_S2048x2048_1_0_n_n_0_1_12048 (ham w) (startColumn (F := F) lit0))
    (startColumn (F := F) lit1)

end Cert.ReferenceIdeal.Ham

end
-- ==== Proof.RunR.lean ====
/-
  The reference program's run, read back. @main is a straight line of 35 host operations: the Hamilton matrix of the
  weight and its two gathers, the product of the input with that matrix, the bias broadcast over the rows, and their
  sum. Every weakly fair execution terminates with every buffer at the fold of the operations over the launch contents;
  the result buffer then holds `input · hamPerm weight + bias`, and the arguments are unchanged.
-/
import proofs.«131239_j88905823027438_2_alg».proof.Proof.Gen.ReferenceIdeal
import proofs.«131239_j88905823027438_2_alg».proof.Proof.HamR
import Idealize.ShloMosaic.Lib.StableHlo.Run

noncomputable section

namespace Cert.ReferenceIdeal.RefRun

open Cert.ReferenceIdeal Cert.ReferenceIdeal.Facts₀ Cert.ReferenceIdeal.Ham
open Idealize.ShloMosaic Idealize.ShloMosaic.TcCoe Idealize.SL.Sem

variable {F : FTy → Type} [FloatOps F]

/-- @main's operations, in order. -/
abbrev ops : List (HloOp τ sig (Elt F)) :=
  [ StableHlo.nullary main_c (fun i => lit0 (S2048.rowMajor i)),
    StableHlo.nullary main_c_0 (constantI S2048 1 0#1),
    StableHlo.nullary main_c_1 (fun i => lit1 (S2048.rowMajor i)),
    StableHlo.nullary main_c_2 (constantI S2048 1 0#1),
    StableHlo.unary main_arg1 main_v0 ((extractStridedSlice S512x512 ![0, 0] · slices_S512x2048_S512x512_0_0) : (⟨S512x2048, .f32⟩ : BufTy).Contents (Elt F) → (⟨S512x512, .f32⟩ : BufTy).Contents (Elt F)),
    StableHlo.unary main_arg1 main_v1 ((extractStridedSlice S512x512 ![0, 512] · slices_S512x2048_S512x512_0_512) : (⟨S512x2048, .f32⟩ : BufTy).Contents (Elt F) → (⟨S512x512, .f32⟩ : BufTy).Contents (Elt F)),
    StableHlo.unary main_arg1 main_v2 ((extractStridedSlice S512x512 ![0, 1024] · slices_S512x2048_S512x512_0_1024) : (⟨S512x2048, .f32⟩ : BufTy).Contents (Elt F) → (⟨S512x512, .f32⟩ : BufTy).Contents (Elt F)),
    StableHlo.unary main_arg1 main_v3 ((extractStridedSlice S512x512 ![0, 1536] · slices_S512x2048_S512x512_0_1536) : (⟨S512x2048, .f32⟩ : BufTy).Contents (Elt F) → (⟨S512x512, .f32⟩ : BufTy).Contents (Elt F)),
    StableHlo.unary main_v1 main_v4 (Host.negf : (⟨S512x512, .f32⟩ : BufTy).Contents (Elt F) → (⟨S512x512, .f32⟩ : BufTy).Contents (Elt F)),
    StableHlo.unary main_v2 main_v5 (Host.negf : (⟨S512x512, .f32⟩ : BufTy).Contents (Elt F) → (⟨S512x512, .f32⟩ : BufTy).Contents (Elt F)),
    StableHlo.unary main_v3 main_v6 (Host.negf : (⟨S512x512, .f32⟩ : BufTy).Contents (Elt F) → (⟨S512x512, .f32⟩ : BufTy).Contents (Elt F)),
    StableHlo.nary ![main_v0, main_v4, main_v5, main_v6] main_v7 (fun u => concatenate S512x2048 1 [⟨S512x512, u 0⟩, ⟨S512x512, u 1⟩, ⟨S512x512, u 2⟩, ⟨S512x512, u 3⟩] concatenates_S512x512_S512x512_S512x512_S512x512_S512x2048_d1),
    StableHlo.unary main_v3 main_v8 (Host.negf : (⟨S512x512, .f32⟩ : BufTy).Contents (Elt F) → (⟨S512x512, .f32⟩ : BufTy).Contents (Elt F)),
    StableHlo.nary ![main_v1, main_v0, main_v8, main_v2] main_v9 (fun u => concatenate S512x2048 1 [⟨S512x512, u 0⟩, ⟨S512x512, u 1⟩, ⟨S512x512, u 2⟩, ⟨S512x512, u 3⟩] concatenates_S512x512_S512x512_S512x512_S512x512_S512x2048_d1),
    StableHlo.unary main_v1 main_v10 (Host.negf : (⟨S512x512, .f32⟩ : BufTy).Contents (Elt F) → (⟨S512x512, .f32⟩ : BufTy).Contents (Elt F)),
    StableHlo.nary ![main_v2, main_v3, main_v0, main_v10] main_v11 (fun u => concatenate S512x2048 1 [⟨S512x512, u 0⟩, ⟨S512x512, u 1⟩, ⟨S512x512, u 2⟩, ⟨S512x512, u 3⟩] concatenates_S512x512_S512x512_S512x512_S512x512_S512x2048_d1),
    StableHlo.unary main_v2 main_v12 (Host.negf : (⟨S512x512, .f32⟩ : BufTy).Contents (Elt F) → (⟨S512x512, .f32⟩ : BufTy).Contents (Elt F)),
    StableHlo.nary ![main_v3, main_v12, main_v1, main_v0] main_v13 (fun u => concatenate S512x2048 1 [⟨S512x512, u 0⟩, ⟨S512x512, u 1⟩, ⟨S512x512, u 2⟩, ⟨S512x512, u 3⟩] concatenates_S512x512_S512x512_S512x512_S512x512_S512x2048_d1),
    StableHlo.nary ![main_v7, main_v9, main_v11, main_v13] main_v14 (fun u => concatenate S2048x2048 0 [⟨S512x2048, u 0⟩, ⟨S512x2048, u 1⟩, ⟨S512x2048, u 2⟩, ⟨S512x2048, u 3⟩] concatenates_S512x2048_S512x2048_S512x2048_S512x2048_S2048x2048_d0),
    StableHlo.nullary main_c_3 (constantI S_ 32 2048#32),
    StableHlo.unary main_c_3 main_v15 (broadcastInDim S2048 ![] bcast_S_S2048 : (⟨S_, .i32⟩ : BufTy).Contents (Elt F) → (⟨S2048, .i32⟩ : BufTy).Contents (Elt F)),
    StableHlo.binary main_c main_v15 main_v16 (addi : (⟨S2048, .i32⟩ : BufTy).Contents (Elt F) → (⟨S2048, .i32⟩ : BufTy).Contents (Elt F) → (⟨S2048, .i32⟩ : BufTy).Contents (Elt F)),
    StableHlo.ternary main_c_0 main_v16 main_c main_v17 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v17 main_v18 (broadcastInDim S2048x1 ![0] bcast_S2048_S2048x1_0 : (⟨S2048, .i32⟩ : BufTy).Contents (Elt F) → (⟨S2048x1, .i32⟩ : BufTy).Contents (Elt F)),
    StableHlo.binary main_v14 main_v18 main_v19 ((fun x i => Host.gather gather_S2048x2048_S2048x1_S2048x2048_1_0_n_n_0_1_12048 x i) : (⟨S2048x2048, .f32⟩ : BufTy).Contents (Elt F) → (⟨S2048x1, .i32⟩ : BufTy).Contents (Elt F) → (⟨S2048x2048, .f32⟩ : BufTy).Contents (Elt F)),
    StableHlo.nullary main_c_4 (constantI S_ 32 2048#32),
    StableHlo.unary main_c_4 main_v20 (broadcastInDim S2048 ![] bcast_S_S2048 : (⟨S_, .i32⟩ : BufTy).Contents (Elt F) → (⟨S2048, .i32⟩ : BufTy).Contents (Elt F)),
    StableHlo.binary main_c_1 main_v20 main_v21 (addi : (⟨S2048, .i32⟩ : BufTy).Contents (Elt F) → (⟨S2048, .i32⟩ : BufTy).Contents (Elt F) → (⟨S2048, .i32⟩ : BufTy).Contents (Elt F)),
    StableHlo.ternary main_c_2 main_v21 main_c_1 main_v22 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v22 main_v23 (broadcastInDim S2048x1 ![0] bcast_S2048_S2048x1_0 : (⟨S2048, .i32⟩ : BufTy).Contents (Elt F) → (⟨S2048x1, .i32⟩ : BufTy).Contents (Elt F)),
    StableHlo.binary main_v19 main_v23 main_v24 ((fun x i => Host.gather gather_S2048x2048_S2048x1_S2048x2048_0_1_n_n_1_1_20481 x i) : (⟨S2048x2048, .f32⟩ : BufTy).Contents (Elt F) → (⟨S2048x1, .i32⟩ : BufTy).Contents (Elt F) → (⟨S2048x2048, .f32⟩ : BufTy).Contents (Elt F)),
    StableHlo.binary main_arg0 main_v24 main_v25 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg2 main_v26 (broadcastInDim S1x2048 ![1] bcast_S2048_S1x2048_1 : (⟨S2048, .f32⟩ : BufTy).Contents (Elt F) → (⟨S1x2048, .f32⟩ : BufTy).Contents (Elt F)),
    StableHlo.unary main_v26 main_v27 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v25 main_v27 main_v28 (addf : (⟨S8192x2048, .f32⟩ : BufTy).Contents (Elt F) → (⟨S8192x2048, .f32⟩ : BufTy).Contents (Elt F) → (⟨S8192x2048, .f32⟩ : BufTy).Contents (Elt F)) ]

theorem main_eq (c : Dev nD) : main (F := F) c = StableHlo.seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.nary_bufs_sub .., StableHlo.unary_bufs_sub .., StableHlo.nary_bufs_sub .., StableHlo.unary_bufs_sub .., StableHlo.nary_bufs_sub .., StableHlo.nary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub ..⟩

/-- Every weakly fair execution of @main terminates, every buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ

/-- The permuted Hamilton matrix is what the first 31 operations leave in their last result buffer. -/
theorem fold_mat (m : (ℓ : Loc nD τ sig) → Buf (Elt F) ℓ) (c : Dev nD) :
    StableHlo.after (ops (F := F)) (StableHlo.launchContents m c) (Proc.devRef .tc main_v24)
      = hamPerm (m ((c.tc : Thread nD τ).loc main_arg1)) := by
  after_results_simp
  rfl

end Cert.ReferenceIdeal.RefRun

end
-- ==== Proof.ValueR.lean ====
/-
  What the reference's result buffer holds after its run, at the ideal instance: the input times the permuted Hamilton
  matrix of the weight, plus the bias broadcast over the rows. Read at an index, the host's product is the sum over the one
  contracted axis of the operands' products, and the two broadcasts read the bias at the column: `Spec.affine`.
-/
import proofs.«131239_j88905823027438_2_alg».proof.Proof.RunR
import proofs.«131239_j88905823027438_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Facts₀ Cert.ReferenceIdeal.Ham Cert.ReferenceIdeal.RefRun
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result buffer after the operations: the product plus the broadcast bias, of the launch contents. -/
theorem fold_out (c : Dev nD) :
    @Eq (FVec Ideal S8192x2048 .f32) (after (ops (F := Ideal)) (launchContents m c) (Proc.devRef .tc main_v28))
      (addf (Host.dotGeneral (φ₁ := .f32) (φ₂ := .f32) dot_S8192x2048_S2048x2048_S8192x2048_1_0_0_1_n_n none (m ((c.tc : Thread nD τ).loc main_arg0) : FVec Ideal S8192x2048 .f32)
            (hamPerm (m ((c.tc : Thread nD τ).loc main_arg1)) : FVec Ideal S2048x2048 .f32))
          (broadcastInDim S8192x2048 ![0, 1] bcast_S1x2048_S8192x2048_0_1
            (broadcastInDim S1x2048 ![1] bcast_S2048_S1x2048_1 (m ((c.tc : Thread nD τ).loc main_arg2) : FVec Ideal S2048 .f32)))) := by
  after_results_simp
  rfl

/-- No operation writes an argument buffer. -/
theorem fold_arg0 (c : Dev nD) : after (ops (F := Ideal)) (launchContents m c) (Proc.devRef .tc main_arg0) = m ((c.tc : Thread nD τ).loc main_arg0) := by
  after_results_simp
theorem fold_arg1 (c : Dev nD) : after (ops (F := Ideal)) (launchContents m c) (Proc.devRef .tc main_arg1) = m ((c.tc : Thread nD τ).loc main_arg1) := by
  after_results_simp
theorem fold_arg2 (c : Dev nD) : after (ops (F := Ideal)) (launchContents m c) (Proc.devRef .tc main_arg2) = m ((c.tc : Thread nD τ).loc main_arg2) := by
  after_results_simp

/-- Index by index the reference's term is `Spec.affine`. -/
theorem ref_eq_affine (x : FVec Ideal S8192x2048 .f32) (H : FVec Ideal S2048x2048 .f32) (b : FVec Ideal S2048 .f32) :
    addf (Host.dotGeneral (φ₁ := .f32) (φ₂ := .f32) dot_S8192x2048_S2048x2048_S8192x2048_1_0_0_1_n_n none x H)
        (broadcastInDim S8192x2048 ![0, 1] bcast_S1x2048_S8192x2048_0_1 (broadcastInDim S1x2048 ![1] bcast_S2048_S1x2048_1 b))
      = Cert.Spec.affine x H b := by
  funext i
  obtain ⟨r, j, rfl⟩ : ∃ (r : Fin 8192) (j : Fin 2048), i = ix2 r j := ⟨i 0, i 1, eq_ix2 i⟩
  show (Host.dotGeneral (φ₁ := .f32) (φ₂ := .f32) dot_S8192x2048_S2048x2048_S8192x2048_1_0_0_1_n_n none x H) (ix2 r j)
      + (broadcastInDim S8192x2048 ![0, 1] bcast_S1x2048_S8192x2048_0_1 (broadcastInDim S1x2048 ![1] bcast_S2048_S1x2048_1 b)) (ix2 r j)
      = (∑ k : Fin 2048, x (ix2 r k) * H (ix2 k j)) + b (ix1 j)
  refine congrArg₂ (· + ·) ?_ ?_
  · refine (Ideal.dotGeneral_apply _ _ _ _ _ _).trans ?_
    rw [← Equiv.sum_comp (contrEquiv1 dot_S8192x2048_S2048x2048_S8192x2048_1_0_0_1_n_n 2048 rfl rfl).symm]
    refine Finset.sum_congr rfl fun k _ => ?_
    refine congrArg₂ (· * ·) (congrArg x (funext fun a => Fin.ext ?_)) (congrArg H (funext fun a => Fin.ext ?_))
    · match a with
      | ⟨0, _⟩ => rfl
      | ⟨1, _⟩ => exact (DotDims.lhsIdx_val_of_single _ rfl _ _).trans (contrEquiv1_symm_val _ _ _ _ k)
    · match a with
      | ⟨0, _⟩ => exact (DotDims.rhsIdx_val_of_single _ rfl _ _).trans (contrEquiv1_symm_val _ _ _ _ k)
      | ⟨1, _⟩ => rfl
  · refine (broadcastInDim_apply _ _ _ _ (ix2 0 j) ?_).trans (broadcastInDim_apply _ _ _ _ (ix1 j) ?_)
    · intro a
      match a with
      | ⟨0, _⟩ => rfl
      | ⟨1, _⟩ => rfl
    · intro a
      match a with
      | ⟨0, _⟩ => rfl

/-- The reference's run: the result is `Spec.affine` of the launch contents, the arguments unchanged. -/
theorem run : θ_run defs (onTc (τ := τ) (main (F := Ideal))) ⟨m, fun _ => 0, ρ⟩ fun r => ∀ c : Dev nD,
      r.2.mem ((c.tc : Thread nD τ).loc main_v28)
        = Cert.Spec.affine (m ((c.tc : Thread nD τ).loc main_arg0)) (hamPerm (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v28).trans ((fold_out m c).trans (ref_eq_affine _ _ _)),
      (h c main_arg0).trans (fold_arg0 m c), (h c main_arg1).trans (fold_arg1 m c), (h c main_arg2).trans (fold_arg2 m c)⟩)
    (run_fold m ρ)

end Cert.ReferenceIdeal.RefValue

end
-- ==== Proof.Bridge.lean ====
/-
  Both programs build the permuted Hamilton matrix by the same operations, over the same two tables of row and column
  numbers: the two terms are one function of the weight.
-/
import proofs.«131239_j88905823027438_2_alg».proof.Proof.HamKI
import proofs.«131239_j88905823027438_2_alg».proof.Proof.HamR

noncomputable section

namespace Cert.Bridge

open Idealize.ShloMosaic

/-- The kernel program's matrix is the reference program's, for every weight. -/
theorem hamPerm_eq {F : FTy → Type} [FloatOps F] (w : (⟨Cert.KernelIdeal.S512x2048, .f32⟩ : BufTy).Contents (Elt F)) :
    Cert.KernelIdeal.Ham.hamPerm (F := F) w = Cert.ReferenceIdeal.Ham.hamPerm (F := F) w := rfl

end Cert.Bridge

end
-- ==== Proof.lean ====
/-
  The certificate of a quaternion linear layer: `input · P(weight) + bias`, where `P(weight)` is the Hamilton matrix of the
  weight's four column blocks with its rows and columns permuted.

  Both programs build `P(weight)` by the same host operations (slices, negations, concatenations, two gathers over constant
  tables), so the matrix is one opaque `[2048, 2048]` function of the weight on both sides. The kernel program narrows
  it and the input to bf16 (the identity on extended reals), and computes the product 512 rows at a time, the whole
  contraction in one matrix product into a zero accumulator, adding the bias row to every row of the block; the reference
  computes one product over all rows and adds the bias broadcast over them. At every index both are
  `(∑ k, input[r, k] · P(weight)[k, j]) + bias[j]` with the sum and the addition in the same places, so no law of the
  extended reals and no finiteness of the inputs is used.

  The three frames: each kernel program runs its host operations, then the pipelined region over 16 points, each point's
  body loading three whole blocks and storing one; the reference is a straight line of host operations. The ideal pass
  rewrote nothing, so `preserves` is `True`.
-/
import proofs.«131239_j88905823027438_2_alg».proof.Defs
import proofs.«131239_j88905823027438_2_alg».proof.Proof.Gen.Kernel
import proofs.«131239_j88905823027438_2_alg».proof.Proof.Gen.KernelIdeal
import proofs.«131239_j88905823027438_2_alg».proof.Proof.Gen.ReferenceIdeal
import proofs.«131239_j88905823027438_2_alg».proof.Proof.Gen.Pre_finite_inputs
import proofs.«131239_j88905823027438_2_alg».proof.Proof.FrameK
import proofs.«131239_j88905823027438_2_alg».proof.Proof.ValueKI
import proofs.«131239_j88905823027438_2_alg».proof.Proof.ValueR
import proofs.«131239_j88905823027438_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ

theorem frame_ki : Cert.frame_KernelIdeal := fun m ρ _ => Cert.KernelIdeal.Frame.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories that agree on the arguments both runs end with the result array at `Spec.affine` of the input, the
    permuted Hamilton matrix of the weight, and the bias. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  show Cert.Spec.affine _ (Cert.ReferenceIdeal.Ham.hamPerm (m ((c.tc : Thread Cert.KernelIdeal.nD Cert.KernelIdeal.τ).loc Cert.KernelIdeal.main_arg1))) _
    = Cert.Spec.affine _ (Cert.KernelIdeal.Ham.hamPerm (m ((c.tc : Thread Cert.KernelIdeal.nD Cert.KernelIdeal.τ).loc Cert.KernelIdeal.main_arg1))) _
  rw [Cert.Bridge.hamPerm_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
